-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x10000x64 : Shape := ⟨3, ![8, 10000, 64]⟩
abbrev S8x8 : Shape := ⟨2, ![8, 8]⟩
abbrev S8x64x64 : Shape := ⟨3, ![8, 64, 64]⟩
abbrev S128x64 : Shape := ⟨2, ![128, 64]⟩
abbrev S1280000 : Shape := ⟨1, ![1280000]⟩
abbrev S3x1000000 : Shape := ⟨2, ![3, 1000000]⟩
abbrev S_ : Shape := ⟨0, ![]⟩

class Facts : Prop where
  bcast_S_S8x10000x64 : S_.BroadcastsInDim S8x10000x64 (![] : Fin 0 → Fin S8x10000x64.rank)
  reducesTo_S8x10000x64_S_d0_1_2 : S8x10000x64.ReducesTo [0, 1, 2] S_
  h_S_ : 0 < S_.numel
  bcast_S_S8x8 : S_.BroadcastsInDim S8x8 (![] : Fin 0 → Fin S8x8.rank)
  reducesTo_S8x8_S_d0_1 : S8x8.ReducesTo [0, 1] S_
  bcast_S_S8x64x64 : S_.BroadcastsInDim S8x64x64 (![] : Fin 0 → Fin S8x64x64.rank)
  reducesTo_S8x64x64_S_d0_1_2 : S8x64x64.ReducesTo [0, 1, 2] S_
  bcast_S_S128x64 : S_.BroadcastsInDim S128x64 (![] : Fin 0 → Fin S128x64.rank)
  reducesTo_S128x64_S_d0_1 : S128x64.ReducesTo [0, 1] S_
  bcast_S_S1280000 : S_.BroadcastsInDim S1280000 (![] : Fin 0 → Fin S1280000.rank)
  reducesTo_S1280000_S_d0 : S1280000.ReducesTo [0] S_

variable [Facts]

def fn_part1 {F : FTy → Type} [FloatOps F] (main_arg4 : FVec F S128x64 .f32) (main_arg5 : FVec F S1280000 .f32) (main_v13 : IVec S_ 1) (main_v16 : IVec S8x64x64 1) : IVec S_ 1 :=
  let main_c_5 : IVec S_ 1 := constantI S_ 1 1#1
  let main_v17 : IVec S_ 1 := (fun x v => Host.reduce IntOp.andi x v reducesTo_S8x64x64_S_d0_1_2 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S1280000 .f32 := Host.absf main_arg5
  let main_cst_8 : FVec F S_ .f32 := constant S_ .f32 0x7F800000#32
  let main_v25 : FVec F S1280000 .f32 := broadcastInDim S1280000 ![] bcast_S_S1280000 main_cst_8
  let main_v26 : IVec S1280000 1 := cmpf .olt main_v24 main_v25
  let main_c_9 : IVec S_ 1 := constantI S_ 1 1#1
  let main_v27 : IVec S_ 1 := (fun x v => Host.reduce IntOp.andi x v reducesTo_S1280000_S_d0 h_S_) main_v26 main_c_9
  let main_v28 : IVec S_ 1 := andi main_v23 main_v27
  main_v28

def fn {F : FTy → Type} [FloatOps F] (main_arg0 : FVec F S8x10000x64 .f32) (main_arg1 : FVec F S8x8 .f32) (main_arg2 : FVec F S8x8 .f32) (main_arg3 : FVec F S8x64x64 .f32) (main_arg4 : FVec F S128x64 .f32) (main_arg5 : FVec F S1280000 .f32) (main_arg6 : IVec S1280000 32) (main_arg7 : IVec S1280000 32) (main_arg8 : IVec S3x1000000 32) : IVec S_ 1 :=
  let main_v0 : FVec F S8x10000x64 .f32 := Host.absf main_arg0
  let main_cst : FVec F S_ .f32 := constant S_ .f32 0x7F800000#32
  let main_v1 : FVec F S8x10000x64 .f32 := broadcastInDim S8x10000x64 ![] bcast_S_S8x10000x64 main_cst
  let main_v2 : IVec S8x10000x64 1 := cmpf .olt main_v0 main_v1
  let main_c : IVec S_ 1 := constantI S_ 1 1#1
  let main_v3 : IVec S_ 1 := (fun x v => Host.reduce IntOp.andi x v reducesTo_S8x10000x64_S_d0_1_2 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S8x8 .f32 := Host.absf main_arg2
  let main_cst_2 : FVec F S_ .f32 := constant S_ .f32 0x7F800000#32
  let main_v10 : FVec F S8x8 .f32 := broadcastInDim S8x8 ![] bcast_S_S8x8 main_cst_2
  let main_v11 : IVec S8x8 1 := cmpf .olt main_v9 main_v10
  let main_c_3 : IVec S_ 1 := constantI S_ 1 1#1
  let main_v12 : IVec S_ 1 := (fun x v => Host.reduce IntOp.andi x v reducesTo_S8x8_S_d0_1 h_S_) main_v11 main_c_3
  let main_v13 : IVec S_ 1 := andi main_v8 main_v12
  let main_v14 : FVec F S8x64x64 .f32 := Host.absf main_arg3
  let main_cst_4 : FVec F S_ .f32 := constant S_ .f32 0x7F800000#32
  let main_v15 : FVec F S8x64x64 .f32 := broadcastInDim S8x64x64 ![] bcast_S_S8x64x64 main_cst_4
  let main_v16 : IVec S8x64x64 1 := cmpf .olt main_v14 main_v15
  fn_part1 (F := F) main_arg4 main_arg5 main_v13 main_v16
-- ==== Kernel.lean ====
abbrev S8x10000x64 : Shape := ⟨3, ![8, 10000, 64]⟩
abbrev S8x8 : Shape := ⟨2, ![8, 8]⟩
abbrev S8x64x64 : Shape := ⟨3, ![8, 64, 64]⟩
abbrev S128x64 : Shape := ⟨2, ![128, 64]⟩
abbrev S1280000 : Shape := ⟨1, ![1280000]⟩
abbrev S3x1000000 : Shape := ⟨2, ![3, 1000000]⟩
abbrev S8x640000 : Shape := ⟨2, ![8, 640000]⟩
abbrev S80000x64 : Shape := ⟨2, ![80000, 64]⟩
abbrev S_ : Shape := ⟨0, ![]⟩
abbrev S1280000x1 : Shape := ⟨2, ![1280000, 1]⟩
abbrev S1280000x64 : Shape := ⟨2, ![1280000, 64]⟩
abbrev S1x2000x64 : Shape := ⟨3, ![1, 2000, 64]⟩
abbrev S1x64x64 : Shape := ⟨3, ![1, 64, 64]⟩
abbrev S2000x64 : Shape := ⟨2, ![2000, 64]⟩
abbrev S64x64 : Shape := ⟨2, ![64, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S10000x64 : Shape := ⟨2, ![10000, 64]⟩

abbrev nBuf : Space → Nat
  | .hbm => 76
  | .vmem => 14
  | .smem => 0
  | _ => 0

abbrev bufTy : (tb : Table) → Fin (tcTables nBuf tb) → BufTy
  | .hbm, ⟨0, _⟩ => ⟨S8x10000x64, .f32⟩
  | .hbm, ⟨1, _⟩ => ⟨S8x8, .f32⟩
  | .hbm, ⟨2, _⟩ => ⟨S8x8, .f32⟩
  | .hbm, ⟨3, _⟩ => ⟨S8x64x64, .f32⟩
  | .hbm, ⟨4, _⟩ => ⟨S128x64, .f32⟩
  | .hbm, ⟨5, _⟩ => ⟨S1280000, .f32⟩
  | .hbm, ⟨6, _⟩ => ⟨S1280000, .i32⟩
  | .hbm, ⟨7, _⟩ => ⟨S1280000, .i32⟩
  | .hbm, ⟨8, _⟩ => ⟨S3x1000000, .i32⟩
  | .hbm, ⟨9, _⟩ => ⟨S8x640000, .f32⟩
  | .hbm, ⟨10, _⟩ => ⟨S8x640000, .f32⟩
  | .hbm, ⟨11, _⟩ => ⟨S8x10000x64, .f32⟩
  | .hbm, ⟨12, _⟩ => ⟨S80000x64, .f32⟩
  | .hbm, ⟨13, _⟩ => ⟨S_, .i32⟩
  | .hbm, ⟨14, _⟩ => ⟨S1280000, .i32⟩
  | .hbm, ⟨15, _⟩ => ⟨S1280000, .i1⟩
  | .hbm, ⟨16, _⟩ => ⟨S_, .i32⟩
  | .hbm, ⟨17, _⟩ => ⟨S1280000, .i32⟩
  | .hbm, ⟨18, _⟩ => ⟨S1280000, .i32⟩
  | .hbm, ⟨19, _⟩ => ⟨S1280000, .i32⟩
  | .hbm, ⟨20, _⟩ => ⟨S1280000x1, .i32⟩
  | .hbm, ⟨21, _⟩ => ⟨S1280000x64, .f32⟩
  | .hbm, ⟨22, _⟩ => ⟨S1280000x1, .f32⟩
  | .hbm, ⟨23, _⟩ => ⟨S1280000x64, .f32⟩
  | .hbm, ⟨24, _⟩ => ⟨S1280000x64, .f32⟩
  | .hbm, ⟨25, _⟩ => ⟨S_, .f32⟩
  | .hbm, ⟨26, _⟩ => ⟨S80000x64, .f32⟩
  | .hbm, ⟨27, _⟩ => ⟨S1280000x1, .i32⟩
  | .hbm, ⟨28, _⟩ => ⟨S80000x64, .f32⟩
  | .hbm, ⟨29, _⟩ => ⟨S8x10000x64, .f32⟩
  | .hbm, ⟨30, _⟩ => ⟨S8x10000x64, .f32⟩
  | .hbm, ⟨31, _⟩ => ⟨S8x640000, .f32⟩
  | .hbm, ⟨32, _⟩ => ⟨S8x640000, .f32⟩
  | .hbm, ⟨33, _⟩ => ⟨S8x10000x64, .f32⟩
  | .hbm, ⟨34, _⟩ => ⟨S80000x64, .f32⟩
  | .hbm, ⟨35, _⟩ => ⟨S1x1000000, .i32⟩
  | .hbm, ⟨36, _⟩ => ⟨S1000000, .i32⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1x1000000, .i32⟩
  | .hbm, ⟨41, _⟩ => ⟨S1000000, .i32⟩
  | .hbm, ⟨42, _⟩ => ⟨S1000000, .i32⟩
  | .hbm, ⟨43, _⟩ => ⟨S1x1000000, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1x1000000, .i32⟩
  | .hbm, ⟨49, _⟩ => ⟨S1000000, .i32⟩
  | .hbm, ⟨50, _⟩ => ⟨S1000000, .i32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S1000000x64, .bf16⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000x64, .f32⟩
  | .hbm, ⟨70, _⟩ => ⟨S1000000x64, .bf16⟩
  | .hbm, ⟨71, _⟩ => ⟨S64x64, .f32⟩
  | .hbm, ⟨72, _⟩ => ⟨S64x64, .bf16⟩
  | .hbm, ⟨73, _⟩ => ⟨S64x64, .f32⟩
  | .hbm, ⟨74, _⟩ => ⟨S64x64, .bf16⟩
  | .hbm, ⟨75, _⟩ => ⟨S1000000x64, .f32⟩
  | .local _ .vmem, ⟨0, _⟩ => ⟨S1x2000x64, .f32⟩
  | .local _ .vmem, ⟨1, _⟩ => ⟨S1x2000x64, .f32⟩
  | .local _ .vmem, ⟨2, _⟩ => ⟨S1x64x64, .f32⟩
  | .local _ .vmem, ⟨3, _⟩ => ⟨S1x64x64, .f32⟩
  | .local _ .vmem, ⟨4, _⟩ => ⟨S1x2000x64, .f32⟩
  | .local _ .vmem, ⟨5, _⟩ => ⟨S1x2000x64, .f32⟩
  | .local _ .vmem, ⟨6, _⟩ => ⟨S10000x64, .bf16⟩
  | .local _ .vmem, ⟨7, _⟩ => ⟨S10000x64, .bf16⟩
  | .local _ .vmem, ⟨8, _⟩ => ⟨S10000x64, .bf16⟩
  | .local _ .vmem, ⟨9, _⟩ => ⟨S10000x64, .bf16⟩
  | .local _ .vmem, ⟨10, _⟩ => ⟨S64x64, .bf16⟩
  | .local _ .vmem, ⟨11, _⟩ => ⟨S64x64, .bf16⟩
  | .local _ .vmem, ⟨12, _⟩ => ⟨S10000x64, .f32⟩
  | .local _ .vmem, ⟨13, _⟩ => ⟨S10000x64, .f32⟩
  | _, _ => ⟨S8x10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_3 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S8x10000x64_S8x640000 : S8x10000x64.ShapeCasts S8x640000
  shapeCasts_S8x640000_S8x10000x64 : S8x640000.ShapeCasts S8x10000x64
  shapeCasts_S8x10000x64_S80000x64 : S8x10000x64.ShapeCasts S80000x64
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S80000x64 : S_.BroadcastsInDim S80000x64 (![] : Fin 0 → Fin S80000x64.rank)
  shapeCasts_S80000x64_S8x10000x64 : S80000x64.ShapeCasts S8x10000x64
  inb_S1x2000x64_S1x2000x64_0_0_0 : ∀ a, (![0, 0, 0] : Fin 3 → Nat) a + S1x2000x64.size a ≤ S1x2000x64.size a
  h_S1x2000x64 : 0 < S1x2000x64.numel
  shapeCasts_S1x2000x64_S2000x64 : S1x2000x64.ShapeCasts S2000x64
  bitsLt_bf16_f32 : FTy.bits .bf16 < FTy.bits .f32
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S2000x64_S1x2000x64 : S2000x64.ShapeCasts S1x2000x64
  slices_S3x1000000_S1x1000000_0_0 : S3x1000000.Slices ![0, 0] S1x1000000
  shapeCasts_S1x1000000_S1000000 : S1x1000000.ShapeCasts S1000000
  bcast_S_S1000000 : S_.BroadcastsInDim S1000000 (![] : Fin 0 → Fin S1000000.rank)
  slices_S3x1000000_S1x1000000_1_0 : S3x1000000.Slices ![1, 0] S1x1000000
  slices_S3x1000000_S1x1000000_2_0 : S3x1000000.Slices ![2, 0] S1x1000000
  bcast_S1000000_S1000000x1_0 : S1000000.BroadcastsInDim S1000000x1 (![0] : Fin 1 → Fin S1000000x1.rank)
  slices_S128x64_S64x64_0_0 : S128x64.Slices ![0, 0] S64x64
  slices_S128x64_S64x64_64_0 : S128x64.Slices ![64, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  dot_S8x8_S8x640000_S8x640000_1_0_0_1_n_n_wf : DotDims.WF S8x8 S8x640000 S8x640000 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S2000x64_S64x64_S2000x64_1_0_0_1_n_n_wf : DotDims.WF S2000x64 S64x64 S2000x64 [1] [0] [0] [1] [] []
  gather_S80000x64_S1000000x1_S1000000x64_1_0_n_n_0_1_164_wf : GatherDims.WF S80000x64 S1000000x1 S1000000x64 [1] [0] [] [0] [] 1 ![1, 64]
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x64.size a ≤ S8x10000x64.size a
  hwx0_0 : ∀ i : grid0.Coords, EltTy.bits .f32 = 32 ∨ (Rect.block (s := S8x10000x64) S1x2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x64x64.size a
  hwx0_1 : ∀ i : grid0.Coords, EltTy.bits .f32 = 32 ∨ (Rect.block (s := S8x64x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x64.size a ≤ S8x10000x64.size a
  hwx0_2 : ∀ i : grid0.Coords, EltTy.bits .f32 = 32 ∨ (Rect.block (s := S8x10000x64) S1x2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1000000x64.size a
  hwx1_0 : ∀ i : grid1.Coords, EltTy.bits .bf16 = 32 ∨ (Rect.block (s := S1000000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1000000x64.size a
  hwx1_1 : ∀ i : grid1.Coords, EltTy.bits .bf16 = 32 ∨ (Rect.block (s := S1000000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S1000000x64.size a
  hwx1_4 : ∀ i : grid1.Coords, EltTy.bits .f32 = 32 ∨ (Rect.block (s := S1000000x64) S10000x64.size (cc1_transform_4 i) (hinb1_4 i)).WholeWords (EltTy.packing .f32)

variable [Facts₀]

def dot_S8x8_S8x640000_S8x640000_1_0_0_1_n_n : DotDims S8x8 S8x640000 S8x640000 where
  lhsContracting := [1]
  rhsContracting := [0]
  lhsNonContracting := [0]
  rhsNonContracting := [1]
  lhsBatch := []
  rhsBatch := []
  wf := dot_S8x8_S8x640000_S8x640000_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S80000x64_S1000000x1_S1000000x64_1_0_n_n_0_1_164 : GatherDims S80000x64 S1000000x1 S1000000x64 where
  offsetDims := [1]
  collapsedSliceDims := [0]
  operandBatchingDims := []
  startIndicesBatchingDims := []
  startIndexMap := [0]
  indexVectorDim := 1
  sliceSizes := ![1, 64]
  wf := gather_S80000x64_S1000000x1_S1000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v17) S1x2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x10000x64 : Shape := ⟨3, ![8, 10000, 64]⟩
abbrev S8x8 : Shape := ⟨2, ![8, 8]⟩
abbrev S8x64x64 : Shape := ⟨3, ![8, 64, 64]⟩
abbrev S128x64 : Shape := ⟨2, ![128, 64]⟩
abbrev S1280000 : Shape := ⟨1, ![1280000]⟩
abbrev S3x1000000 : Shape := ⟨2, ![3, 1000000]⟩
abbrev S8x640000 : Shape := ⟨2, ![8, 640000]⟩
abbrev S80000x64 : Shape := ⟨2, ![80000, 64]⟩
abbrev S1280000x1 : Shape := ⟨2, ![1280000, 1]⟩
abbrev S_ : Shape := ⟨0, ![]⟩
abbrev S1280000x64 : Shape := ⟨2, ![1280000, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1000000x128 : Shape := ⟨2, ![1000000, 128]⟩

abbrev nBuf : Space → Nat
  | .hbm => 71
  | .vmem => 0
  | .smem => 0
  | _ => 0

abbrev bufTy : (tb : Table) → Fin (tcTables nBuf tb) → BufTy
  | .hbm, ⟨0, _⟩ => ⟨S8x10000x64, .f32⟩
  | .hbm, ⟨1, _⟩ => ⟨S8x8, .f32⟩
  | .hbm, ⟨2, _⟩ => ⟨S8x8, .f32⟩
  | .hbm, ⟨3, _⟩ => ⟨S8x64x64, .f32⟩
  | .hbm, ⟨4, _⟩ => ⟨S128x64, .f32⟩
  | .hbm, ⟨5, _⟩ => ⟨S1280000, .f32⟩
  | .hbm, ⟨6, _⟩ => ⟨S1280000, .i32⟩
  | .hbm, ⟨7, _⟩ => ⟨S1280000, .i32⟩
  | .hbm, ⟨8, _⟩ => ⟨S3x1000000, .i32⟩
  | .hbm, ⟨9, _⟩ => ⟨S8x640000, .f32⟩
  | .hbm, ⟨10, _⟩ => ⟨S8x640000, .f32⟩
  | .hbm, ⟨11, _⟩ => ⟨S8x10000x64, .f32⟩
  | .hbm, ⟨12, _⟩ => ⟨S80000x64, .f32⟩
  | .hbm, ⟨13, _⟩ => ⟨S1280000x1, .f32⟩
  | .hbm, ⟨14, _⟩ => ⟨S_, .i32⟩
  | .hbm, ⟨15, _⟩ => ⟨S1280000, .i32⟩
  | .hbm, ⟨16, _⟩ => ⟨S1280000, .i1⟩
  | .hbm, ⟨17, _⟩ => ⟨S_, .i32⟩
  | .hbm, ⟨18, _⟩ => ⟨S1280000, .i32⟩
  | .hbm, ⟨19, _⟩ => ⟨S1280000, .i32⟩
  | .hbm, ⟨20, _⟩ => ⟨S1280000, .i32⟩
  | .hbm, ⟨21, _⟩ => ⟨S1280000x1, .i32⟩
  | .hbm, ⟨22, _⟩ => ⟨S1280000x64, .f32⟩
  | .hbm, ⟨23, _⟩ => ⟨S1280000x64, .f32⟩
  | .hbm, ⟨24, _⟩ => ⟨S1280000x64, .f32⟩
  | .hbm, ⟨25, _⟩ => ⟨S_, .f32⟩
  | .hbm, ⟨26, _⟩ => ⟨S80000x64, .f32⟩
  | .hbm, ⟨27, _⟩ => ⟨S1280000x1, .i32⟩
  | .hbm, ⟨28, _⟩ => ⟨S80000x64, .f32⟩
  | .hbm, ⟨29, _⟩ => ⟨S8x10000x64, .f32⟩
  | .hbm, ⟨30, _⟩ => ⟨S8x10000x64, .f32⟩
  | .hbm, ⟨31, _⟩ => ⟨S8x640000, .f32⟩
  | .hbm, ⟨32, _⟩ => ⟨S8x640000, .f32⟩
  | .hbm, ⟨33, _⟩ => ⟨S8x10000x64, .f32⟩
  | .hbm, ⟨34, _⟩ => ⟨S80000x64, .f32⟩
  | .hbm, ⟨35, _⟩ => ⟨S1x1000000, .i32⟩
  | .hbm, ⟨36, _⟩ => ⟨S1000000, .i32⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1x1000000, .i32⟩
  | .hbm, ⟨41, _⟩ => ⟨S1000000, .i32⟩
  | .hbm, ⟨42, _⟩ => ⟨S1000000, .i32⟩
  | .hbm, ⟨43, _⟩ => ⟨S1x1000000, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1x1000000, .i32⟩
  | .hbm, ⟨49, _⟩ => ⟨S1000000, .i32⟩
  | .hbm, ⟨50, _⟩ => ⟨S1000000, .i32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x64, .f32⟩
  | .hbm, ⟨60, _⟩ => ⟨S_, .i32⟩
  | .hbm, ⟨61, _⟩ => ⟨S1000000, .i32⟩
  | .hbm, ⟨62, _⟩ => ⟨S1000000, .i1⟩
  | .hbm, ⟨63, _⟩ => ⟨S_, .i32⟩
  | .hbm, ⟨64, _⟩ => ⟨S1000000, .i32⟩
  | .hbm, ⟨65, _⟩ => ⟨S1000000, .i32⟩
  | .hbm, ⟨66, _⟩ => ⟨S1000000, .i32⟩
  | .hbm, ⟨67, _⟩ => ⟨S1000000x1, .i32⟩
  | .hbm, ⟨68, _⟩ => ⟨S1000000x64, .f32⟩
  | .hbm, ⟨69, _⟩ => ⟨S1000000x128, .f32⟩
  | .hbm, ⟨70, _⟩ => ⟨S1000000x64, .f32⟩
  | _, _ => ⟨S8x10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_3 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  shapeCasts_S8x10000x64_S8x640000 : S8x10000x64.ShapeCasts S8x640000
  shapeCasts_S8x640000_S8x10000x64 : S8x640000.ShapeCasts S8x10000x64
  shapeCasts_S8x10000x64_S80000x64 : S8x10000x64.ShapeCasts S80000x64
  bcast_S1280000_S1280000x1_0 : S1280000.BroadcastsInDim S1280000x1 (![0] : Fin 1 → Fin S1280000x1.rank)
  bcast_S_S1280000 : S_.BroadcastsInDim S1280000 (![] : Fin 0 → Fin S1280000.rank)
  bcast_S1280000x1_S1280000x64_0_1 : S1280000x1.BroadcastsInDim S1280000x64 (![0, 1] : Fin 2 → Fin S1280000x64.rank)
  bcast_S_S80000x64 : S_.BroadcastsInDim S80000x64 (![] : Fin 0 → Fin S80000x64.rank)
  shapeCasts_S80000x64_S8x10000x64 : S80000x64.ShapeCasts S8x10000x64
  slices_S3x1000000_S1x1000000_0_0 : S3x1000000.Slices ![0, 0] S1x1000000
  shapeCasts_S1x1000000_S1000000 : S1x1000000.ShapeCasts S1000000
  bcast_S_S1000000 : S_.BroadcastsInDim S1000000 (![] : Fin 0 → Fin S1000000.rank)
  slices_S3x1000000_S1x1000000_1_0 : S3x1000000.Slices ![1, 0] S1x1000000
  slices_S3x1000000_S1x1000000_2_0 : S3x1000000.Slices ![2, 0] S1x1000000
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  dot_S8x8_S8x640000_S8x640000_1_0_0_1_n_n_wf : DotDims.WF S8x8 S8x640000 S8x640000 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S8x10000x64_S8x64x64_S8x10000x64_2_1_1_2_0_0_wf : DotDims.WF S8x10000x64 S8x64x64 S8x10000x64 [2] [1] [1] [2] [0] [0]
  gather_S80000x64_S1000000x1_S1000000x64_1_0_n_n_0_1_164_wf : GatherDims.WF S80000x64 S1000000x1 S1000000x64 [1] [0] [] [0] [] 1 ![1, 64]
  dot_S1000000x128_S128x64_S1000000x64_1_0_0_1_n_n_wf : DotDims.WF S1000000x128 S128x64 S1000000x64 [1] [0] [0] [1] [] []

variable [Facts₀]

def dot_S8x8_S8x640000_S8x640000_1_0_0_1_n_n : DotDims S8x8 S8x640000 S8x640000 where
  lhsContracting := [1]
  rhsContracting := [0]
  lhsNonContracting := [0]
  rhsNonContracting := [1]
  lhsBatch := []
  rhsBatch := []
  wf := dot_S8x8_S8x640000_S8x640000_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S8x10000x64_S8x64x64_S8x10000x64_2_1_1_2_0_0 : DotDims S8x10000x64 S8x64x64 S8x10000x64 where
  lhsContracting := [2]
  rhsContracting := [1]
  lhsNonContracting := [1]
  rhsNonContracting := [2]
  lhsBatch := [0]
  rhsBatch := [0]
  wf := dot_S8x10000x64_S8x64x64_S8x10000x64_2_1_1_2_0_0_wf
def gather_S80000x64_S1000000x1_S1000000x64_1_0_n_n_0_1_164 : GatherDims S80000x64 S1000000x1 S1000000x64 where
  offsetDims := [1]
  collapsedSliceDims := [0]
  operandBatchingDims := []
  startIndicesBatchingDims := []
  startIndexMap := [0]
  indexVectorDim := 1
  sliceSizes := ![1, 64]
  wf := gather_S80000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf

class Facts : Prop extends Facts₀ where

variable [Facts]
-- ==== Proof.KernelRun.lean ====
/-
  The kernel's run with its result named.

  The program is a stretch of host operations, the first pallas region, a second stretch of host operations and the
  second pallas region. The buffer contents at the four boundaries are a fold from the launch memory: a stretch applies
  its operations, a region replaces its arrays by what its write-backs leave. Every weakly fair execution terminates
  with every unscoped buffer at the last boundary's contents; read at the result buffer this names the result, and read
  at an argument buffer it walks back to the launch memory, because no operation and no region writes an argument.
-/
import proofs.«117002_j21878563406445_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_named : θ_run defs (onTc (τ := τ) (main (F := F))) ⟨m, fun _ => 0, ρ⟩ (fun r => ∀ c : Dev nD,
      r.2.mem ((c.tc : Thread nD τ).loc main_v57) = W4 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v57 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Named

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«117002_j21878563406445_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibLayout3.lean ====
/-
  Three layout and reduction readings at an index, for any extents.

  * The sum over the MIDDLE axis of an `[a, b, c]` array, started from the zero word, read at `(r, d)`: the sum
    over `i : Fin b` of the entries `(r, i, d)`.
  * An `[a, b, c]` array cast to `[a, n]` with `n = b · c` reads, at `(r, k)` with `k = i · c + d`, the
    operand at `(r, i, d)`: the two trailing axes flattened row-major.
  * Two arrays `[a, n₁]` and `[a, n₂]` concatenated along axis 1 read, at `(r, k)`, the first at `(r, k)`
    when `k < n₁` and the second at `(r, k − n₁)` otherwise.
-/
import Idealize.ShloMosaic.Lib.ValueIdx
import Idealize.ShloMosaic.Lib.Pipeline.Value
import Idealize.ShloMosaic.PureOps.Ideal.Laws

noncomputable section

open scoped BigOperators

namespace Cert.LibLayout3

open Idealize.ShloMosaic Idealize.ShloMosaic.ValueIdx

variable {α : Type}

/-- The sum along the middle axis, read at `(r, d)`. -/
theorem midSum_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (r : Fin a) (d : Fin c) :
    multiReduction (F := Ideal) .add [1] ⟨2, ![a, c]⟩ src 0x00000000#32 h hφ hacc (ix2 r d)
      = ∑ i : Fin b, src (ix3 r i d) := by
  refine (Ideal.multiReduction_add_single src _ h hφ hacc (ix2 r d)).trans ?_
  refine Finset.sum_congr rfl fun k _ => congrArg src ?_
  funext ax; apply Fin.ext
  match ax with
  | ⟨0, _⟩ => rfl
  | ⟨1, _⟩ => rfl
  | ⟨2, _⟩ => rfl

/-- The two trailing axes flattened. -/
theorem shapeCast_abc_an_apply {a b c n : Nat} (x : (⟨3, ![a, b, c]⟩ : Shape).Idx → α)
    (h : (⟨3, ![a, b, c]⟩ : Shape).ShapeCasts ⟨2, ![a, n]⟩) (hn : n = b * c) (r : Fin a) (k : Fin n) (i : Fin b)
    (d : Fin c) (hk : k.val = i.val * c + d.val) :
    shapeCast ⟨2, ![a, n]⟩ x h (ix2 r k) = x (ix3 r i d) :=
  shapeCast_apply x h _ _ (by
    rw [Shape.rowMajor_val_three, Shape.rowMajor_val_two]
    show (r.val * b + i.val) * c + d.val = r.val * n + k.val
    rw [hk, hn]; ring)

/-- A concatenation along axis 1, read in its first piece. -/
theorem concat_axis1_left {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : k.val < n₁) :
    concatenate ⟨2, ![a, n]⟩ 1 [⟨⟨2, ![a, n₁]⟩, x₁⟩, ⟨⟨2, ![a, n₂]⟩, x₂⟩] h (ix2 r k) = x₁ (ix2 r ⟨k.val, hk⟩) :=
  concatenate_pair_apply_left 1 x₁ x₂ h (ix2 r k) rfl (ix2 r ⟨k.val, hk⟩) (fun b => by
    match b with
    | ⟨0, _⟩ => rfl
    | ⟨1, _⟩ => rfl)

/-- A concatenation along axis 1, read in its second piece. -/
theorem concat_axis1_right {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : n₁ ≤ k.val)
    (hk2 : k.val - n₁ < n₂) :
    concatenate ⟨2, ![a, n]⟩ 1 [⟨⟨2, ![a, n₁]⟩, x₁⟩, ⟨⟨2, ![a, n₂]⟩, x₂⟩] h (ix2 r k) = x₂ (ix2 r ⟨k.val - n₁, hk2⟩) :=
  concatenate_pair_apply_right 1 x₁ x₂ h (ix2 r k) rfl rfl (ix2 r ⟨k.val - n₁, hk2⟩)
    (fun b hb => by
      match b with
      | ⟨0, _⟩ => rfl
      | ⟨1, _⟩ => exact absurd rfl hb)
    (by show (k.val - n₁) + n₁ = k.val; omega)

end Cert.LibLayout3

end
-- ==== Proof.EdgeSpec.lean ====
/-
  The two dense stages of the edge pipeline as whole-array functions on the extended reals, and the three laws
  that join the kernel's forms to the reference's.

  * `stepProduct A W`: for every time step `t`, node `n` and output feature `g`, the sum over the input
    feature `k` of `A (t, n, k) · W (t, k, g)` — the per-time-step weight applied to the aggregated features.
  * `edgeProj Ys Yt Ut Ub`: for every edge `e` and output feature `j`, the sum over `k` of
    `Ys (e, k) · Ut (k, j)` plus the sum over `k` of `Yt (e, k) · Ub (k, j)` — the source endpoint's row
    through the upper half of the projection and the target endpoint's row through the lower half.

  The laws: a product of two arrays does not depend on the order of its factors; a host contraction with the time
  step as a batch axis is `stepProduct`; and a host contraction of the two endpoint rows laid side by side
  (128 columns) with the whole projection (128 rows) is `edgeProj` of the rows and the two halves, because a sum
  over 128 positions is the sum over the first 64 plus the sum over the last 64 — only associativity and
  commutativity of addition on the extended reals, so no finiteness is needed. A change of float format is the
  identity at the ideal instance.
-/
import proofs.«117002_j21878563406445_1_alg».proof.Proof.LibMatmulNN
import proofs.«117002_j21878563406445_1_alg».proof.Proof.LibDotGeneralNN
import proofs.«117002_j21878563406445_1_alg».proof.Proof.LibLayout3
import Idealize.ShloMosaic.Lib.ValueIdx
import Idealize.ShloMosaic.Lib.Pipeline.Value
import Idealize.ShloMosaic.PureOps.Ideal.Laws

noncomputable section

open scoped BigOperators

namespace Cert.EdgeSpec

open Idealize.ShloMosaic Idealize.ShloMosaic.ValueIdx

/-- Aggregated features per time step and node: 8 × 10000 × 64. -/
abbrev SA : Shape := ⟨3, ![8, 10000, 64]⟩
/-- One 64 × 64 weight per time step. -/
abbrev SW : Shape := ⟨3, ![8, 64, 64]⟩
/-- One row of 64 features per edge. -/
abbrev SE : Shape := ⟨2, ![1000000, 64]⟩
/-- The two endpoint rows side by side. -/
abbrev SEE : Shape := ⟨2, ![1000000, 128]⟩
/-- Half of the projection. -/
abbrev SU : Shape := ⟨2, ![64, 64]⟩
/-- The whole projection. -/
abbrev SUU : Shape := ⟨2, ![128, 64]⟩

/-- The per-time-step weight applied to every node's features. -/
def stepProduct (A : FVec Ideal SA .f32) (W : FVec Ideal SW .f32) : FVec Ideal SA .f32 :=
  fun i => ∑ k : Fin 64, A (ix3 (i 0) (i 1) k) * W (ix3 (i 0) k (i 2))

/-- The source row through the upper half of the projection plus the target row through the lower half. -/
def edgeProj {φ ψ : FTy} (Ys Yt : FVec Ideal SE φ) (Ut Ub : FVec Ideal SU ψ) : FVec Ideal SE .f32 :=
  fun i => (∑ k : Fin 64, Ys (ix2 (i 0) k) * Ut (ix2 k (i 1))) + ∑ k : Fin 64, Yt (ix2 (i 0) k) * Ub (ix2 k (i 1))

theorem stepProduct_apply (A : FVec Ideal SA .f32) (W : FVec Ideal SW .f32) (t : Fin 8) (n : Fin 10000) (g : Fin 64) :
    stepProduct A W (ix3 t n g) = ∑ k : Fin 64, A (ix3 t n k) * W (ix3 t k g) := rfl

theorem edgeProj_apply {φ ψ : FTy} (Ys Yt : FVec Ideal SE φ) (Ut Ub : FVec Ideal SU ψ) (e : Fin 1000000) (j : Fin 64) :
    edgeProj Ys Yt Ut Ub (ix2 e j)
      = (∑ k : Fin 64, Ys (ix2 e k) * Ut (ix2 k j)) + ∑ k : Fin 64, Yt (ix2 e k) * Ub (ix2 k j) := rfl

/-- The entrywise product of two arrays does not depend on the order of the factors. -/
theorem mulf_comm {s : Shape} {φ : FTy} (a b : FVec Ideal s φ) : mulf a b = mulf b a :=
  funext fun i => by rw [mulf_apply, mulf_apply, mul_comm]

/-- A sum over 128 positions is the sum over the first 64 plus the sum over the last 64. -/
theorem sum_halves {M : Type} [AddCommMonoid M] (f : Fin 128 → M) :
    ∑ k : Fin 128, f k
      = (∑ k : Fin 64, f ⟨k.val, by omega⟩) + ∑ k : Fin 64, f ⟨64 + k.val, by omega⟩ := by
  have h := Fin.sum_univ_add (a := 64) (b := 64) (fun k : Fin (64 + 64) => f ⟨k.val, k.isLt⟩)
  refine h.trans ?_
  rfl

/-- The two endpoint rows side by side contracted with the whole projection: the source row meets the
    projection's rows 0 … 63, the target row its rows 64 … 127. -/
theorem concat_dot_eq (d : DotDims SEE SUU SE)
    (hlc : d.lhsContracting = [1]) (hrc : d.rhsContracting = [0]) (hln : d.lhsNonContracting = [0])
    (hrn : d.rhsNonContracting = [1]) (hlb : d.lhsBatch = []) (hrb : d.rhsBatch = [])
    (hc : Shape.Concatenates [SE, SE] SEE 1)
    (h0 : SUU.Slices ![0, 0] SU) (h1 : SUU.Slices ![64, 0] SU)
    (hb : FTy.bf16.bits < FTy.f32.bits)
    (Ys Yt : FVec Ideal SE .f32) (U : FVec Ideal SUU .f32) :
    Host.dotGeneral (F := Ideal) d none (concatenate SEE 1 [⟨SE, Ys⟩, ⟨SE, Yt⟩] hc) U
      = edgeProj (truncf .bf16 Ys hb) (truncf .bf16 Yt hb)
          (truncf .bf16 (extractStridedSlice SU ![0, 0] U h0) hb)
          (truncf .bf16 (extractStridedSlice SU ![64, 0] U h1) hb) := by
  funext i
  obtain ⟨e, j, rfl⟩ : ∃ (e : Fin 1000000) (j : Fin 64), i = ix2 e j := ⟨i 0, i 1, eq_ix2 i⟩
  rw [edgeProj_apply]
  refine (Cert.LibDotGeneralNN.dotGeneral_apply d hlc hrc hln hrn hlb hrb none .single _ U e j).trans ?_
  rw [sum_halves]
  congr 1
  · refine Finset.sum_congr rfl fun k _ => ?_
    rw [truncf_apply, truncf_apply]
    rw [Cert.LibLayout3.concat_axis1_left Ys Yt hc e ⟨k.val, by omega⟩ k.isLt]
    congr 1
    refine (extractStridedSlice_apply _ U h0 (ix2 k j) (ix2 ⟨k.val, by omega⟩ j) fun a => ?_).symm
    match a with
    | ⟨0, _⟩ => show k.val = 0 + k.val; omega
    | ⟨1, _⟩ => show j.val = 0 + j.val; omega
  · refine Finset.sum_congr rfl fun k _ => ?_
    rw [truncf_apply, truncf_apply]
    rw [Cert.LibLayout3.concat_axis1_right Ys Yt hc e ⟨64 + k.val, by omega⟩ (by show 64 ≤ 64 + k.val; omega)
      (by show 64 + k.val - 64 < 64; omega)]
    congr 1
    · exact congrArg Yt (congrArg (ix2 e) (Fin.ext (by show 64 + k.val - 64 = k.val; omega)))
    · refine (extractStridedSlice_apply _ U h1 (ix2 k j) (ix2 ⟨64 + k.val, by omega⟩ j) fun a => ?_).symm
      match a with
      | ⟨0, _⟩ => show 64 + k.val = 64 + k.val; rfl
      | ⟨1, _⟩ => show j.val = 0 + j.val; omega

end Cert.EdgeSpec

end
-- ==== Proof.LibSliceProduct.lean ====
/-
  The product of two slices with a leading unit axis, read at an entry, at the ideal instance.

  A kernel that keeps a stack of matrices in one buffer loads matrix `q` as a `[1, M, K]` slice, casts it to
  `[M, K]`, rounds it to a narrower float format and multiplies it by a `[1, K, N]` slice treated the same way,
  into the zero accumulator. At the ideal instance the rounding is the identity and the product is the textbook
  sum, so the entry at row `p` and column `c` is `∑ k, a (0, p, k) · w (0, k, c)`. Stated for any plain
  dimension-number record, any extents and any two formats.
-/
import proofs.«117002_j21878563406445_1_alg».proof.Proof.LibMatmulNN
import Idealize.ShloMosaic.Lib.ValueLayout

noncomputable section

open scoped BigOperators

namespace Cert.LibSliceProduct

open Idealize.ShloMosaic Idealize.ShloMosaic.ValueIdx

variable {M K N : Nat} {φ ψ : FTy}

/-- The rounded, cast slices' product at the entry `(p, c)`. -/
theorem sliceProduct_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (a : FVec Ideal ⟨3, ![1, M, K]⟩ φ) (w : FVec Ideal ⟨3, ![1, K, N]⟩ φ)
    (ha : (⟨3, ![1, M, K]⟩ : Shape).ShapeCasts ⟨2, ![M, K]⟩) (hw : (⟨3, ![1, K, N]⟩ : Shape).ShapeCasts ⟨2, ![K, N]⟩)
    (hbits : ψ.bits < φ.bits) (p : Fin M) (c : Fin N) :
    matmul d prec (truncf ψ (shapeCast ⟨2, ![M, K]⟩ a ha) hbits) (truncf ψ (shapeCast ⟨2, ![K, N]⟩ w hw) hbits)
        (constant (F := Ideal) ⟨2, ![M, N]⟩ .f32 0x00000000#32) (ix2 p c)
      = ∑ k : Fin K, a (ix3 (0 : Fin 1) p k) * w (ix3 (0 : Fin 1) k c) := by
  rw [Cert.LibMatmulNN.matmul_zero_apply' d hlc hrc hln hrn hlb hrb prec _ _ p c]
  refine Finset.sum_congr rfl fun k _ => ?_
  rw [truncf_apply, truncf_apply, shapeCast_1ab_ab_apply a ha p k, shapeCast_1ab_ab_apply w hw k c]

end Cert.LibSliceProduct

end
-- ==== Proof.StepRegion.lean ====
/-
  The first pallas region as one whole-array function.

  The grid is 8 × 5: point `t` is time step `t / 5` and node tile `t % 5`. It fetches the 2000 × 64 tile of the
  aggregated features at that time step and those nodes, the 64 × 64 weight of that time step, and writes back the
  2000 × 64 tile of the result at the same place. The body multiplies the tile by the weight into a zero accumulator; so
  at node `p` of the tile and output feature `q` it leaves `∑ k, a (0, p, k) · w (0, k, q)`. The node
  `(t, n)` lies in exactly the block of the point `5·t + n / 2000`, so the blocks cover the array, and the array ends at
  `stepProduct` of the two arrays the region found, whatever those are.
-/
import proofs.«117002_j21878563406445_1_alg».proof.Proof.Gen.KernelIdeal.Frame
import proofs.«117002_j21878563406445_1_alg».proof.Proof.EdgeSpec
import proofs.«117002_j21878563406445_1_alg».proof.Proof.LibSliceProduct
import Idealize.ShloMosaic.Lib.Pipeline.Value
import Idealize.ShloMosaic.Lib.ValueIdx
import Idealize.ShloMosaic.Lib.ValueLayout

set_option maxRecDepth 16384

noncomputable section

open scoped BigOperators

namespace Cert.KernelIdeal.StepRegion

open Idealize.ShloMosaic Idealize.ShloMosaic.TcCoe Idealize.SL.Sem Idealize.ShloMosaic.ValueIdx
open Idealize.ShloMosaic.Pipeline (Dat)
open Cert.KernelIdeal Cert.KernelIdeal.Gen Cert.EdgeSpec

variable (V : (c : Dev nD) → (b : Ref sig .tc) → Buf (Elt Ideal) ((c : Thread nD τ).loc b))

theorem zero3 : (![0, 0, 0] : Fin 3 → Nat) = fun _ => 0 := funext fun a => by fin_cases a <;> rfl

/-- The body's stored value at node `p` of the tile and output feature `q`: the tile's row through the weight. -/
theorem stepBody_apply (a : Vec Ideal S1x2000x64 .f32) (w : Vec Ideal S1x64x64 .f32) (z : Fin 1) (p : Fin 2000) (q : Fin 64) :
    k0_pay1 a w (ix3 z p q) = ∑ k : Fin 64, a (ix3 (0 : Fin 1) p k) * w (ix3 (0 : Fin 1) k q) := by
  unfold k0_pay1
  rw [shapeCast_ab_1ab_apply _ shapeCasts_S2000x64_S1x2000x64 z p q]
  exact Cert.LibSliceProduct.sliceProduct_apply dot_S2000x64_S64x64_S2000x64_1_0_0_1_n_n rfl rfl rfl rfl rfl rfl none a w
    shapeCasts_S1x2000x64_S2000x64 shapeCasts_S1x64x64_S64x64 bitsLt_bf16_f32 p q

/-- One entry of a block against one entry of the whole-array function: when the tile's rows are rows of `A` at the
    point's time step and its weight is `W`'s at that time step, the stored value is `stepProduct` there. -/
theorem stepBody_entry (a : Vec Ideal S1x2000x64 .f32) (w : Vec Ideal S1x64x64 .f32)
    (A : FVec Ideal SA .f32) (W : FVec Ideal SW .f32) (y : S1x2000x64.Idx) (i : SA.Idx)
    (ha : ∀ k : Fin 64, a (ix3 (0 : Fin 1) (y 1) k) = A (ix3 (i 0) (i 1) k))
    (hw : ∀ k : Fin 64, w (ix3 (0 : Fin 1) k (y 2)) = W (ix3 (i 0) k (i 2))) :
    k0_pay1 a w y = stepProduct A W i := by
  calc k0_pay1 a w y = k0_pay1 a w (ix3 (y 0) (y 1) (y 2)) := congrArg (k0_pay1 a w) (eq_ix3 y)
    _ = ∑ k : Fin 64, a (ix3 (0 : Fin 1) (y 1) k) * w (ix3 (0 : Fin 1) k (y 2)) := stepBody_apply a w (y 0) (y 1) (y 2)
    _ = stepProduct A W i := Finset.sum_congr rfl fun k _ => congrArg₂ (· * ·) (ha k) (hw k)

/-- The printed index maps over the 40 points: the time step is `t / 5`, the node tile `t % 5`; the weight's
    window follows the time step only. -/
theorem stepIndex : ∀ t : Fin cfg0.N,
    win0_0.index t (0 : Fin 3) = t.val / 5 ∧ win0_0.index t (1 : Fin 3) = t.val % 5 ∧ win0_0.index t (2 : Fin 3) = 0
    ∧ win0_1.index t (0 : Fin 3) = t.val / 5 ∧ win0_1.index t (1 : Fin 3) = 0 ∧ win0_1.index t (2 : Fin 3) = 0
    ∧ win0_2.index t (0 : Fin 3) = t.val / 5 ∧ win0_2.index t (1 : Fin 3) = t.val % 5 ∧ win0_2.index t (2 : Fin 3) = 0 :=
  (by decide +kernel : ∀ t : Fin grid0.N, _)

/-- What point `t` writes back is block `t` of `stepProduct` of the arrays the region found. -/
theorem stepFlushed (c : Dev nD) (t : Fin cfg0.N) :
    (dat0 V c).flushed 2 t = ((cfg0.win 2).blk t).view.read (Elt Ideal) (stepProduct (V c main_v17) (V c main_arg3)) := by
  show (cfg0.win 2).cut (grid0.coords t) ((dat0 V c).after 2 t) = _
  rw [after0_2]
  unfold out0_2
  rw [View.canon_unit_zero zero3]
  simp only [View.ld_unit_zero (S := S1x2000x64) zero3, View.ld_unit_zero (S := S1x64x64) zero3]
  obtain ⟨e00, e01, e02, e10, e11, e12, e20, e21, e22⟩ := stepIndex t
  funext j
  rw [View.read_apply]
  have hj0 : (j 0).val < 1 := (j 0).isLt
  have hj1 : (j 1).val < 2000 := (j 1).isLt
  have hj2 : (j 2).val < 64 := (j 2).isLt
  refine stepBody_entry (iblk0 V c 0 t) (iblk0 V c 1 t) (V c main_v17) (V c main_arg3)
    ((cfg0.win 2).xinj (grid0.coords t) j) (((cfg0.win 2).blk t).view.emb j) (fun k => ?_) (fun k => ?_)
  · show V c main_v17 (((cfg0.win 0).blk t).view.emb (ix3 (0 : Fin 1) ((cfg0.win 2).xinj (grid0.coords t) j 1) k)) = _
    refine congrArg (V c main_v17) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 2000 + 1 * (j 1).val = win0_2.index t (1 : Fin 3) * 2000 + 1 * (j 1).val; omega
    | ⟨2, _⟩ => show win0_0.index t (2 : Fin 3) * 64 + 1 * k.val = k.val; omega
  · show V c main_arg3 (((cfg0.win 1).blk t).view.emb (ix3 (0 : Fin 1) k ((cfg0.win 2).xinj (grid0.coords t) j 2))) = _
    refine congrArg (V c main_arg3) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 64 + 1 * k.val = k.val; omega
    | ⟨2, _⟩ => show win0_1.index t (2 : Fin 3) * 64 + 1 * (j 2).val = win0_2.index t (2 : Fin 3) * 64 + 1 * (j 2).val; omega

/-- An index of the result lies in point `t`'s block iff each coordinate is in the block's range on its axis. -/
theorem stepMem (t : Fin cfg0.N) (i : S8x10000x64.Idx) :
    i ∈ ((cfg0.win 2).blk t).view.set ↔ ∀ a : Fin 3, win0_2.index t a * S1x2000x64.size a ≤ (i a).val
      ∧ (i a).val < win0_2.index t a * S1x2000x64.size a + S1x2000x64.size a := by
  show i ∈ ((View.whole main_v18).slice (win0_2.rect t)).set ↔ _
  rw [View.set_slice_whole, Rect.mem_set_unit]
  exact Iff.rfl

/-- The result array after the region: `stepProduct` of the two arrays the region found. The node `(t, n)` is
    written by the point `5·t + n / 2000`. -/
theorem stepFinal (c : Dev nD) :
    (dat0 V c).arrAt 2 cfg0.N = stepProduct (V c main_v17) (V c main_arg3) :=
  (dat0 V c).arrAt_eq_of_cover 2 _ (fun t _ => stepFlushed V c t) fun i => by
    have hi0 : (i 0).val < 8 := (i 0).isLt
    have hi1 : (i 1).val < 10000 := (i 1).isLt
    have hi2 : (i 2).val < 64 := (i 2).isLt
    have hN : cfg0.N = 40 := N_0
    refine ⟨⟨(i 0).val * 5 + (i 1).val / 2000, by rw [hN]; omega⟩, flush0_2 _, ?_⟩
    rw [stepMem]
    obtain ⟨-, -, -, -, -, -, e20, e21, e22⟩ := stepIndex ⟨(i 0).val * 5 + (i 1).val / 2000, by rw [hN]; omega⟩
    intro a
    match a with
    | ⟨0, _⟩ =>
      show win0_2.index _ (0 : Fin 3) * 1 ≤ (i 0).val ∧ (i 0).val < win0_2.index _ (0 : Fin 3) * 1 + 1
      rw [e20]; show ((i 0).val * 5 + (i 1).val / 2000) / 5 * 1 ≤ (i 0).val ∧ (i 0).val < ((i 0).val * 5 + (i 1).val / 2000) / 5 * 1 + 1; omega
    | ⟨1, _⟩ =>
      show win0_2.index _ (1 : Fin 3) * 2000 ≤ (i 1).val ∧ (i 1).val < win0_2.index _ (1 : Fin 3) * 2000 + 2000
      rw [e21]; show ((i 0).val * 5 + (i 1).val / 2000) % 5 * 2000 ≤ (i 1).val ∧ (i 1).val < ((i 0).val * 5 + (i 1).val / 2000) % 5 * 2000 + 2000; omega
    | ⟨2, _⟩ =>
      show win0_2.index _ (2 : Fin 3) * 64 ≤ (i 2).val ∧ (i 2).val < win0_2.index _ (2 : Fin 3) * 64 + 64
      rw [e22]; omega

end Cert.KernelIdeal.StepRegion

end
-- ==== Proof.EdgeRegion.lean ====
/-
  The second pallas region as one whole-array function.

  The grid has 100 points; point `t` fetches rows `10000·t … 10000·t + 9999` of the source-endpoint rows and of the
  target-endpoint rows, the two 64 × 64 halves of the projection whole, and writes back rows
  `10000·t … 10000·t + 9999` of the result. The body multiplies the source rows by the upper half and the target rows by
  the lower half, each into a zero accumulator, and adds the two products; so at row `p` of the block and column `q`
  it leaves `∑ k, s (p, k) · u (k, q) + ∑ k, r (p, k) · v (k, q)`. Every row of the result lies in exactly the block
  of the point `row / 10000`, so the blocks cover the array, and the array ends at `edgeProj` of the four arrays the
  region found, whatever those are.
-/
import proofs.«117002_j21878563406445_1_alg».proof.Proof.Gen.KernelIdeal.Frame
import proofs.«117002_j21878563406445_1_alg».proof.Proof.EdgeSpec
import proofs.«117002_j21878563406445_1_alg».proof.Proof.LibMatmulNN
import Idealize.ShloMosaic.Lib.Pipeline.Value
import Idealize.ShloMosaic.Lib.ValueIdx

set_option maxRecDepth 16384

noncomputable section

open scoped BigOperators

namespace Cert.KernelIdeal.EdgeRegion

open Idealize.ShloMosaic Idealize.ShloMosaic.TcCoe Idealize.SL.Sem Idealize.ShloMosaic.ValueIdx
open Idealize.ShloMosaic.Pipeline (Dat)
open Cert.KernelIdeal Cert.KernelIdeal.Gen Cert.EdgeSpec

variable (V : (c : Dev nD) → (b : Ref sig .tc) → Buf (Elt Ideal) ((c : Thread nD τ).loc b))

theorem zero2 : (![0, 0] : Fin 2 → Nat) = fun _ => 0 := funext fun a => by fin_cases a <;> rfl

/-- The body's stored value at row `p`, column `q` of the block: the source row through the upper half plus the
    target row through the lower half. -/
theorem edgeBody_apply (s r : Vec Ideal S10000x64 .bf16) (u v : Vec Ideal S64x64 .bf16) (p : Fin 10000) (q : Fin 64) :
    k1_pay1 s r u v (ix2 p q)
      = (∑ k : Fin 64, s (ix2 p k) * u (ix2 k q)) + ∑ k : Fin 64, r (ix2 p k) * v (ix2 k q) := by
  unfold k1_pay1
  simp only [shapeCast_self]
  rw [addf_apply]
  rw [Cert.LibMatmulNN.matmul_zero_apply' dot_S10000x64_S64x64_S10000x64_1_0_0_1_n_n rfl rfl rfl rfl rfl rfl none s u p q,
    Cert.LibMatmulNN.matmul_zero_apply' dot_S10000x64_S64x64_S10000x64_1_0_0_1_n_n rfl rfl rfl rfl rfl rfl none r v p q]

/-- One entry of a block against one entry of the whole-array function: when the block's rows are rows of `Ys` and
    `Yt` and its two small operands are `Ut` and `Ub`, the stored value is `edgeProj` there. -/
theorem edgeBody_entry (s r : Vec Ideal S10000x64 .bf16) (u v : Vec Ideal S64x64 .bf16)
    (Ys Yt : FVec Ideal SE .bf16) (Ut Ub : FVec Ideal SU .bf16) (y : S10000x64.Idx) (i : SE.Idx)
    (hs : ∀ k : Fin 64, s (ix2 (y 0) k) = Ys (ix2 (i 0) k)) (hr : ∀ k : Fin 64, r (ix2 (y 0) k) = Yt (ix2 (i 0) k))
    (hu : ∀ k : Fin 64, u (ix2 k (y 1)) = Ut (ix2 k (i 1))) (hv : ∀ k : Fin 64, v (ix2 k (y 1)) = Ub (ix2 k (i 1))) :
    k1_pay1 s r u v y = edgeProj Ys Yt Ut Ub i := by
  calc k1_pay1 s r u v y = k1_pay1 s r u v (ix2 (y 0) (y 1)) := congrArg (k1_pay1 s r u v) (eq_ix2 y)
    _ = (∑ k : Fin 64, s (ix2 (y 0) k) * u (ix2 k (y 1))) + ∑ k : Fin 64, r (ix2 (y 0) k) * v (ix2 k (y 1)) :=
        edgeBody_apply s r u v (y 0) (y 1)
    _ = edgeProj Ys Yt Ut Ub i :=
        congrArg₂ (· + ·) (Finset.sum_congr rfl fun k _ => congrArg₂ (· * ·) (hs k) (hu k))
          (Finset.sum_congr rfl fun k _ => congrArg₂ (· * ·) (hr k) (hv k))

/-- The printed index maps over the 100 points: the two row windows and the output move with the point, the two
    halves of the projection stay. -/
theorem edgeIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `edgeProj` of the arrays the region found. -/
theorem edgeFlushed (c : Dev nD) (t : Fin cfg1.N) :
    (dat1 V c).flushed 4 t = ((cfg1.win 4).blk t).view.read (Elt Ideal)
      (edgeProj (φ := .bf16) (ψ := .bf16) (V c main_v44) (V c main_v52) (V c main_v54) (V c main_v56)) := by
  show (cfg1.win 4).cut (grid1.coords t) ((dat1 V c).after 4 t) = _
  rw [after1_4]
  unfold out1_4
  rw [View.canon_unit_zero zero2]
  simp only [View.ld_unit_zero (S := S10000x64) zero2, View.ld_unit_zero (S := S64x64) zero2]
  obtain ⟨e00, e01, e10, e11, e20, e21, e30, e31, e40, e41⟩ := edgeIndex t
  funext j
  rw [View.read_apply]
  have hj0 : (j 0).val < 10000 := (j 0).isLt
  have hj1 : (j 1).val < 64 := (j 1).isLt
  refine edgeBody_entry (iblk1 V c 0 t) (iblk1 V c 1 t) (iblk1 V c 2 t) (iblk1 V c 3 t)
    (V c main_v44) (V c main_v52) (V c main_v54) (V c main_v56)
    ((cfg1.win 4).xinj (grid1.coords t) j) (((cfg1.win 4).blk t).view.emb j) (fun k => ?_) (fun k => ?_) (fun k => ?_) (fun k => ?_)
  · show V c main_v44 (((cfg1.win 0).blk t).view.emb (ix2 ((cfg1.win 4).xinj (grid1.coords t) j 0) k)) = _
    refine congrArg (V c main_v44) (funext fun a => Fin.ext ?_)
    match a with
    | ⟨0, _⟩ => show win1_0.index t (0 : Fin 2) * 10000 + 1 * (j 0).val = win1_4.index t (0 : Fin 2) * 10000 + 1 * (j 0).val; omega
    | ⟨1, _⟩ => show win1_0.index t (1 : Fin 2) * 64 + 1 * k.val = k.val; omega
  · show V c main_v52 (((cfg1.win 1).blk t).view.emb (ix2 ((cfg1.win 4).xinj (grid1.coords t) j 0) k)) = _
    refine congrArg (V c main_v52) (funext fun a => Fin.ext ?_)
    match a with
    | ⟨0, _⟩ => show win1_1.index t (0 : Fin 2) * 10000 + 1 * (j 0).val = win1_4.index t (0 : Fin 2) * 10000 + 1 * (j 0).val; omega
    | ⟨1, _⟩ => show win1_1.index t (1 : Fin 2) * 64 + 1 * k.val = k.val; omega
  · show V c main_v54 (((cfg1.win 2).blk t).view.emb (ix2 k ((cfg1.win 4).xinj (grid1.coords t) j 1))) = _
    refine congrArg (V c main_v54) (funext fun a => Fin.ext ?_)
    match a with
    | ⟨0, _⟩ => show win1_2.index t (0 : Fin 2) * 64 + 1 * k.val = k.val; omega
    | ⟨1, _⟩ => show win1_2.index t (1 : Fin 2) * 64 + 1 * (j 1).val = win1_4.index t (1 : Fin 2) * 64 + 1 * (j 1).val; omega
  · show V c main_v56 (((cfg1.win 3).blk t).view.emb (ix2 k ((cfg1.win 4).xinj (grid1.coords t) j 1))) = _
    refine congrArg (V c main_v56) (funext fun a => Fin.ext ?_)
    match a with
    | ⟨0, _⟩ => show win1_3.index t (0 : Fin 2) * 64 + 1 * k.val = k.val; omega
    | ⟨1, _⟩ => show win1_3.index t (1 : Fin 2) * 64 + 1 * (j 1).val = win1_4.index t (1 : Fin 2) * 64 + 1 * (j 1).val; omega

/-- An index of the result lies in point `t`'s block iff each coordinate is in the block's range on its axis. -/
theorem edgeMem (t : Fin cfg1.N) (i : S1000000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v57).slice (win1_4.rect t)).set ↔ _
  rw [View.set_slice_whole, Rect.mem_set_unit]
  exact Iff.rfl

/-- The result array after the region: `edgeProj` of the four arrays the region found. Row `r` is written by the
    point `r / 10000`. -/
theorem edgeFinal (c : Dev nD) :
    (dat1 V c).arrAt 4 cfg1.N = edgeProj (φ := .bf16) (ψ := .bf16) (V c main_v44) (V c main_v52) (V c main_v54) (V c main_v56) :=
  (dat1 V c).arrAt_eq_of_cover 4 _ (fun t _ => edgeFlushed V c t) fun i => by
    have hi0 : (i 0).val < 1000000 := (i 0).isLt
    have hi1 : (i 1).val < 64 := (i 1).isLt
    have hN : cfg1.N = 100 := N_1
    refine ⟨⟨(i 0).val / 10000, by rw [hN]; omega⟩, flush1_4 _, ?_⟩
    rw [edgeMem]
    obtain ⟨-, -, -, -, -, -, -, -, e40, e41⟩ := edgeIndex ⟨(i 0).val / 10000, by rw [hN]; omega⟩
    intro a
    match a with
    | ⟨0, _⟩ =>
      show win1_4.index _ (0 : Fin 2) * 10000 ≤ (i 0).val ∧ (i 0).val < win1_4.index _ (0 : Fin 2) * 10000 + 10000
      rw [e40]; show (i 0).val / 10000 * 10000 ≤ (i 0).val ∧ (i 0).val < (i 0).val / 10000 * 10000 + 10000; omega
    | ⟨1, _⟩ =>
      show win1_4.index _ (1 : Fin 2) * 64 ≤ (i 1).val ∧ (i 1).val < win1_4.index _ (1 : Fin 2) * 64 + 64
      rw [e41]; omega

end Cert.KernelIdeal.EdgeRegion

end
-- ==== Proof.RefStages.lean ====
/-
  The reference's contraction with the time step as a batch axis, read as the per-time-step product.

  For any aggregated features `A` (8 × 10000 × 64) and any weights `W` (8 × 64 × 64), the host contraction that
  keeps the time step of both operands as a batch axis and sums over the features of `A` against the rows of `W` has,
  at time step `t`, node `n` and output feature `g`, the value `∑ k, A (t, n, k) · W (t, k, g)`: the contraction's
  one-axis index set is identified with `Fin 64`, and each operand's index is named coordinate by coordinate.
-/
import proofs.«117002_j21878563406445_1_alg».proof.Proof.Gen.ReferenceIdeal.Read
import proofs.«117002_j21878563406445_1_alg».proof.Proof.EdgeSpec
import Idealize.ShloMosaic.Lib.ValueIdx
import Idealize.ShloMosaic.PureOps.Ideal.Laws

noncomputable section

open scoped BigOperators

namespace Cert.ReferenceIdeal.Stages

open Idealize.ShloMosaic Idealize.ShloMosaic.ValueIdx
open Cert.ReferenceIdeal Cert.ReferenceIdeal.Gen Cert.ReferenceIdeal.Read Cert.EdgeSpec

/-- The batched host contraction is the per-time-step product, whatever its operands. -/
theorem batched_eq (A : FVec Ideal SA .f32) (W : FVec Ideal SW .f32) :
    Host.dotGeneral (F := Ideal) dot_S8x10000x64_S8x64x64_S8x10000x64_2_1_1_2_0_0 none A W = stepProduct A W := by
  funext i
  show FloatOps.dotGeneral dot_S8x10000x64_S8x64x64_S8x10000x64_2_1_1_2_0_0 none .single A W i
    = ∑ k : Fin 64, A (ix3 (i 0) (i 1) k) * W (ix3 (i 0) k (i 2))
  rw [Ideal.dotGeneral_apply, ← Equiv.sum_comp (contrEquiv1 dot_S8x10000x64_S8x64x64_S8x10000x64_2_1_1_2_0_0 64 rfl rfl).symm]
  refine Finset.sum_congr rfl fun k _ => ?_
  have hk := contrEquiv1_symm_val dot_S8x10000x64_S8x64x64_S8x10000x64_2_1_1_2_0_0 64 rfl rfl k
  have el : dot_S8x10000x64_S8x64x64_S8x10000x64_2_1_1_2_0_0.lhsIdx i
      ((contrEquiv1 dot_S8x10000x64_S8x64x64_S8x10000x64_2_1_1_2_0_0 64 rfl rfl).symm k) = ix3 (i 0) (i 1) k :=
    funext fun a => Fin.ext (by
      match a with
      | ⟨0, _⟩ => exact lhs_main_v18_0 _ _
      | ⟨1, _⟩ => exact lhs_main_v18_1 _ _
      | ⟨2, _⟩ => exact (lhs_main_v18_2 _ _).trans hk)
  have er : dot_S8x10000x64_S8x64x64_S8x10000x64_2_1_1_2_0_0.rhsIdx i
      ((contrEquiv1 dot_S8x10000x64_S8x64x64_S8x10000x64_2_1_1_2_0_0 64 rfl rfl).symm k) = ix3 (i 0) k (i 2) :=
    funext fun a => Fin.ext (by
      match a with
      | ⟨0, _⟩ => exact rhs_main_v18_0 _ _
      | ⟨1, _⟩ => exact (rhs_main_v18_1 _ _).trans hk
      | ⟨2, _⟩ => exact rhs_main_v18_2 _ _)
  rw [el, er]
  rfl

end Cert.ReferenceIdeal.Stages

end
-- ==== Proof.Stages.lean ====
/-
  The kernel's buffers at each boundary of its run, read as the reference's stages of the launch arrays.

  The two programs apply the same host operations to the same arrays except in four places, and each is an equality on
  the extended reals:
  * before the first region the kernel multiplies the gathered rows by the edge values and the reference the edge values
    by the gathered rows: a product does not depend on the order of its factors, so the aggregated features (stage 17)
    agree;
  * the first region leaves the per-time-step product of the aggregated features with the weights, which is the
    reference's contraction with the time step as a batch axis (stage 18);
  * the kernel rounds the gathered endpoint rows and the two halves of the projection to a narrower format, which is
    the identity at the ideal instance (stages 43, 50 and the two halves);
  * the second region leaves the source rows through the upper half plus the target rows through the lower half, which
    is the reference's contraction of the two rows side by side with the whole projection (stage 52).
  Every other operation is the same on both sides, so each boundary's contents are the reference's stage term by
  unfolding.
-/
import proofs.«117002_j21878563406445_1_alg».proof.Proof.Gen.KernelIdeal.Frame
import proofs.«117002_j21878563406445_1_alg».proof.Proof.Gen.ReferenceIdeal.Read
import proofs.«117002_j21878563406445_1_alg».proof.Proof.EdgeSpec
import proofs.«117002_j21878563406445_1_alg».proof.Proof.StepRegion
import proofs.«117002_j21878563406445_1_alg».proof.Proof.EdgeRegion
import proofs.«117002_j21878563406445_1_alg».proof.Proof.RefStages
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.EdgeSpec

variable (m : (ℓ : Loc nD τ sig) → Buf (Elt Ideal) ℓ) (ρ : Dev nD → PrngReg)

/-! ## The arguments at the boundaries: no operation and no region writes one -/

theorem entry_arg3 (c : Dev nD) : V1 m ρ c main_arg3 = m ((c : Thread nD τ).loc main_arg3) := by
  show StableHlo.after hostOps0 (W0 m ρ c) (Proc.devRef .tc main_arg3) = _
  after_results_simp <;> rfl

theorem mid_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)

theorem mid_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)

theorem mid_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

/-! ## The stages -/

/-- The aggregated features the first region finds are the reference's: the one difference is the order of the two
    factors of the product that is scattered. -/
theorem aggregated (c : Dev nD) :
    V1 m ρ c main_v17 = Cert.ReferenceIdeal.Read.val_main_v17 (F := Ideal) (m ((c : Thread nD τ).loc main_arg0)) (m ((c : Thread nD τ).loc main_arg1)) (m ((c : Thread nD τ).loc main_arg5)) (m ((c : Thread nD τ).loc main_arg6)) (m ((c : Thread nD τ).loc main_arg7)) := by
  show StableHlo.after hostOps0 (W0 m ρ c) (Proc.devRef .tc main_v17) = _
  after_results_simp
  rw [Cert.EdgeSpec.mulf_comm]
  rfl

/-- What the first region leaves is the reference's batched contraction. -/
theorem weighted (c : Dev nD) :
    W2 m ρ c (Proc.devRef .tc main_v18)
      = Cert.ReferenceIdeal.Read.val_main_v18 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) := by
  refine (W2_arr m ρ c 2).trans ?_
  rw [Cert.KernelIdeal.StepRegion.stepFinal (V1 m ρ) c, aggregated m ρ c, entry_arg3 m ρ c]
  exact (Cert.ReferenceIdeal.Stages.batched_eq _ _).symm

/-- The source endpoint's rows the second region finds: the reference's gathered rows, rounded (the identity here). -/
theorem sourceRows (c : Dev nD) :
    @Eq (FVec Ideal S1000000x64 .bf16) (V3 m ρ c main_v44) (truncf .bf16 (Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) bitsLt_bf16_f32) := by
  show StableHlo.after hostOps1 (W2 m ρ c) (Proc.devRef .tc main_v44) = _
  after_results_simp
  rw [weighted m ρ c, mid_arg2 m ρ c, mid_arg8 m ρ c]
  rfl

/-- The target endpoint's rows likewise. -/
theorem targetRows (c : Dev nD) :
    @Eq (FVec Ideal S1000000x64 .bf16) (V3 m ρ c main_v52) (truncf .bf16 (Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) bitsLt_bf16_f32) := by
  show StableHlo.after hostOps1 (W2 m ρ c) (Proc.devRef .tc main_v52) = _
  after_results_simp
  rw [weighted m ρ c, mid_arg2 m ρ c, mid_arg8 m ρ c]
  rfl

/-- The upper half of the projection, rounded. -/
theorem upperHalf (c : Dev nD) :
    @Eq (FVec Ideal S64x64 .bf16) (V3 m ρ c main_v54) (truncf .bf16 (extractStridedSlice S64x64 ![0, 0] (m ((c : Thread nD τ).loc main_arg4)) slices_S128x64_S64x64_0_0) bitsLt_bf16_f32) := by
  show StableHlo.after hostOps1 (W2 m ρ c) (Proc.devRef .tc main_v54) = _
  after_results_simp
  rw [mid_arg4 m ρ c]

/-- The lower half of the projection, rounded. -/
theorem lowerHalf (c : Dev nD) :
    @Eq (FVec Ideal S64x64 .bf16) (V3 m ρ c main_v56) (truncf .bf16 (extractStridedSlice S64x64 ![64, 0] (m ((c : Thread nD τ).loc main_arg4)) slices_S128x64_S64x64_64_0) bitsLt_bf16_f32) := by
  show StableHlo.after hostOps1 (W2 m ρ c) (Proc.devRef .tc main_v56) = _
  after_results_simp
  rw [mid_arg4 m ρ c]

/-- The kernel's result is the reference's last stage of the launch arrays. -/
theorem result (c : Dev nD) :
    W4 m ρ c (Proc.devRef .tc main_v57)
      = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 4).trans ?_
  rw [Cert.KernelIdeal.EdgeRegion.edgeFinal (V3 m ρ) c, sourceRows m ρ c, targetRows m ρ c, upperHalf m ρ c, lowerHalf m ρ c]
  exact (Cert.EdgeSpec.concat_dot_eq Cert.ReferenceIdeal.dot_S1000000x128_S128x64_S1000000x64_1_0_0_1_n_n rfl rfl rfl rfl rfl rfl
    Cert.ReferenceIdeal.Gen.concatenates_S1000000x64_S1000000x64_S1000000x128_d1 slices_S128x64_S64x64_0_0 slices_S128x64_S64x64_64_0
    bitsLt_bf16_f32 _ _ _).symm

end Cert.KernelIdeal.Stages

end
-- ==== Proof.lean ====
/-
  The kernel computes, for every edge, a 64-feature row from the two endpoint rows of a table `Yf`, and the table from
  the inputs in five stages: a mix of the eight time steps by the matrix `M`; a sparse aggregation (gather rows by
  source index, scale by the edge value, add into rows by destination index); a per-time-step 64 × 64 weight; the
  inverse mix by `Minv`; and a reshape to one row per (time step, node). The reference computes the same table with
  one batched contraction for the weight, lays the two endpoint rows side by side and contracts the 128 columns with
  the whole 128 × 64 projection; the kernel instead runs the weight in a first pallas region tiled over (time step,
  node tile), and in a second region multiplies the source rows by the projection's upper half and the target rows by
  its lower half and adds.

  On the extended reals the two are one function of the inputs: every host operation outside the regions is the same
  on both sides up to the order of one product's factors; the first region's tiles cover the array and each holds the
  per-time-step product, which is the batched contraction; a change of float format is the identity; and a sum over 128
  positions is the sum over the first 64 plus the sum over the last 64. Only commutativity and associativity of + and ·
  are used, so the precondition is not opened.

  Both runs are stated with the same result term, the reference's last stage read at the kernel's launch arrays. The
  frames are the generated ones (the reference's is its run with the result dropped); the idealization rewrote no
  operation, so the sanctioned-idealization conjunct is `True`.
-/
import proofs.«117002_j21878563406445_1_alg».proof.Defs
import proofs.«117002_j21878563406445_1_alg».proof.Proof.Gen.Kernel
import proofs.«117002_j21878563406445_1_alg».proof.Proof.Gen.Kernel.Skeleton
import proofs.«117002_j21878563406445_1_alg».proof.Proof.Gen.Kernel.Launch
import proofs.«117002_j21878563406445_1_alg».proof.Proof.Gen.Kernel.Points
import proofs.«117002_j21878563406445_1_alg».proof.Proof.Gen.Kernel.Frame
import proofs.«117002_j21878563406445_1_alg».proof.Proof.Gen.KernelIdeal
import proofs.«117002_j21878563406445_1_alg».proof.Proof.Gen.KernelIdeal.Skeleton
import proofs.«117002_j21878563406445_1_alg».proof.Proof.Gen.KernelIdeal.Launch
import proofs.«117002_j21878563406445_1_alg».proof.Proof.Gen.KernelIdeal.Points
import proofs.«117002_j21878563406445_1_alg».proof.Proof.Gen.KernelIdeal.Frame
import proofs.«117002_j21878563406445_1_alg».proof.Proof.Gen.ReferenceIdeal
import proofs.«117002_j21878563406445_1_alg».proof.Proof.Gen.Pre_finite_inputs
import proofs.«117002_j21878563406445_1_alg».proof.Proof.Gen.ReferenceIdeal.Run
import proofs.«117002_j21878563406445_1_alg».proof.Proof.Gen.ReferenceIdeal.Read
import proofs.«117002_j21878563406445_1_alg».proof.Proof.KernelRun
import proofs.«117002_j21878563406445_1_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the launch arrays: the kernel by reading its boundaries as the
    reference's stages, the reference by its own run, the arguments agreeing. -/
theorem algebraic : Cert.algebraic_KernelIdeal_ReferenceIdeal := by
  intro m ρ m' ρ' _ hagree
  refine ⟨fun c => Cert.ReferenceIdeal.Read.val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Stages.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v52_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
